-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S128x64x64x64 : Shape := ⟨4, ![128, 64, 64, 64]⟩
abbrev S_ : Shape := ⟨0, ![]⟩
abbrev S128x64 : Shape := ⟨2, ![128, 64]⟩
abbrev S128x64x64 : Shape := ⟨3, ![128, 64, 64]⟩
abbrev S8192x64 : Shape := ⟨2, ![8192, 64]⟩
abbrev S8192x64x64 : Shape := ⟨3, ![8192, 64, 64]⟩
abbrev S1024x1024 : Shape := ⟨2, ![1024, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S128x64x64x64, .f32⟩
  | .hbm, ⟨4, _⟩ => ⟨S_, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x64, .i1⟩
  | .hbm, ⟨12, _⟩ => ⟨S128x64x64, .i1⟩
  | .hbm, ⟨13, _⟩ => ⟨S8192x64, .i1⟩
  | .hbm, ⟨14, _⟩ => ⟨S8192x64x64, .i1⟩
  | .hbm, ⟨15, _⟩ => ⟨S8192x4096, .i1⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .bf16⟩
  | .hbm, ⟨21, _⟩ => ⟨S4096x4096, .bf16⟩
  | .hbm, ⟨22, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8192x4096_S128x64x64x64 : S8192x4096.ShapeCasts S128x64x64x64
  reducesTo_S128x64x64x64_S128x64_d1_3 : S128x64x64x64.ReducesTo [1, 3] S128x64
  h_S_ : 0 < S_.numel
  bcast_S_S128x64 : S_.BroadcastsInDim S128x64 (![] : Fin 0 → Fin S128x64.rank)
  bcast_S128x64_S128x64x64_0_2 : S128x64.BroadcastsInDim S128x64x64 (![0, 2] : Fin 2 → Fin S128x64x64.rank)
  shapeCasts_S128x64x64_S8192x64 : S128x64x64.ShapeCasts S8192x64
  bcast_S8192x64_S8192x64x64_0_1 : S8192x64.BroadcastsInDim S8192x64x64 (![0, 1] : Fin 2 → Fin S8192x64x64.rank)
  shapeCasts_S8192x64x64_S8192x4096 : S8192x64x64.ShapeCasts S8192x4096
  bcast_S_S8192x4096 : S_.BroadcastsInDim S8192x4096 (![] : Fin 0 → Fin S8192x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S128x64x64x64 : Shape := ⟨4, ![128, 64, 64, 64]⟩
abbrev S_ : Shape := ⟨0, ![]⟩
abbrev S128x64 : Shape := ⟨2, ![128, 64]⟩
abbrev S128x64x64 : Shape := ⟨3, ![128, 64, 64]⟩
abbrev S8192x64 : Shape := ⟨2, ![8192, 64]⟩
abbrev S8192x64x64 : Shape := ⟨3, ![8192, 64, 64]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S128x64x64x64, .f32⟩
  | .hbm, ⟨4, _⟩ => ⟨S_, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x64, .i1⟩
  | .hbm, ⟨12, _⟩ => ⟨S128x64x64, .i1⟩
  | .hbm, ⟨13, _⟩ => ⟨S8192x64, .i1⟩
  | .hbm, ⟨14, _⟩ => ⟨S8192x64x64, .i1⟩
  | .hbm, ⟨15, _⟩ => ⟨S8192x4096, .i1⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  shapeCasts_S8192x4096_S128x64x64x64 : S8192x4096.ShapeCasts S128x64x64x64
  reducesTo_S128x64x64x64_S128x64_d1_3 : S128x64x64x64.ReducesTo [1, 3] S128x64
  h_S_ : 0 < S_.numel
  bcast_S_S128x64 : S_.BroadcastsInDim S128x64 (![] : Fin 0 → Fin S128x64.rank)
  bcast_S128x64_S128x64x64_0_2 : S128x64.BroadcastsInDim S128x64x64 (![0, 2] : Fin 2 → Fin S128x64x64.rank)
  shapeCasts_S128x64x64_S8192x64 : S128x64x64.ShapeCasts S8192x64
  bcast_S8192x64_S8192x64x64_0_1 : S8192x64.BroadcastsInDim S8192x64x64 (![0, 1] : Fin 2 → Fin S8192x64x64.rank)
  shapeCasts_S8192x64x64_S8192x4096 : S8192x64x64.ShapeCasts S8192x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid point leaves behind, as values.

  The kernel keeps a running [1024, 1024] accumulator in a scratch buffer across the four points that share an output
  block. At the first of the four it stores the zero block and then adds the product of the two operand blocks; at
  every later one it adds that point's product to what the point before left; at the last one it also copies the
  accumulator into the output block. Writing `step acc x w` for "acc plus the product of the blocks x and w" (the body's
  one arithmetic term), the scratch after a first point is `step zero x w`, after any other point `step acc x w`, and
  the output block after a last point is that same `step acc x w`.
-/
import proofs.«114684_j82798379532751_2_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The origin of a block, as the constant-zero offset. -/
theorem hz : (![0, 0] : Fin 2 → Nat) = fun _ => 0 := funext fun a => by fin_cases a <;> rfl

/-- A middle point (neither first nor last of its four): the scratch holding `acc` ends at `acc` plus the product of
    the point's operand blocks. -/
theorem scratch_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i)
    (x0 : Vec F S1024x1024 .bf16) (x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S1024x1024) hz]

/-- A last point: the scratch likewise ends at `acc` plus the product of the point's operand blocks. -/
theorem scratch_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 : Vec F S1024x1024 .bf16) (x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- A last point copies the updated accumulator into the output block: the block ends at the same sum. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 : Vec F S1024x1024 .bf16) (x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

/-- A first point: the scratch is zeroed and then holds zero plus the product of the point's operand blocks. -/
theorem scratch_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x0 : Vec F S1024x1024 .bf16) (x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Acc
end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Step.lean ====
/-
  The body's arithmetic, read at one entry over the extended reals.

  `k0_pay1` is the zero block. `k0_pay2 acc x w` is `acc` plus the matrix product of the [1024, 1024] blocks `x` and
  `w` taken into a zero accumulator; at entry `(p, q)` this is `acc(p, q) + Σ_k x(p, k) · w(k, q)`, the reshapes
  between equal shapes being the identity.
-/
import proofs.«114684_j82798379532751_2_alg».proof.Proof.Gen.KernelIdeal.Skeleton
import proofs.«114684_j82798379532751_2_alg».proof.Proof.LibMatmul
import Idealize.ShloMosaic.PureOps.Ideal.Laws
import Idealize.ShloMosaic.Lib.ValueIdx
import Idealize.ShloMosaic.Lib.Pipeline.Value

open scoped BigOperators

noncomputable section

namespace Cert.KernelIdeal.Acc

open Cert.KernelIdeal Cert.KernelIdeal.Gen Idealize.ShloMosaic Idealize.ShloMosaic.ValueIdx

/-- The block product's dimension numbers are the plain ones: contract the left operand's columns with the right
    operand's rows. -/
theorem dot_plain : dot_S1024x1024_S1024x1024_S1024x1024_1_0_0_1_n_n = DotDims.plain 1024 1024 1024 := rfl

/-- The zero block is zero at every entry. -/
theorem zero_apply (y : S1024x1024.Idx) : k0_pay1 (F := Ideal) y = 0 := by
  unfold k0_pay1
  simp only [shapeCast_self]
  exact Ideal.ofBits_zero_f32

/-- The row-by-column sum of `X : [A, K]` and `W : [K, B]` at `(p, q)`: `Σ_k X(p, k) · W(k, q)`. -/
def rowcol {A K B : ℕ} (X : (⟨2, ![A, K]⟩ : Shape).Idx → EReal) (W : (⟨2, ![K, B]⟩ : Shape).Idx → EReal) (p : Fin A) (q : Fin B) : EReal :=
  ∑ k : Fin K, X (ix2 p k) * W (ix2 k q)

/-- One accumulation step at entry `(p, q)`: the old entry plus the row-by-column sum of the two blocks. -/
theorem step_apply (acc : Vec Ideal S1024x1024 .f32) (x w : Vec Ideal S1024x1024 .bf16) (p q : Fin 1024) :
    k0_pay2 acc x w (ix2 p q) = acc (ix2 p q) + rowcol x w p q := by
  unfold k0_pay2 rowcol
  simp only [shapeCast_self, dot_plain]
  rw [addf_apply]
  exact congrArg (acc (ix2 p q) + ·) (Cert.MatOps.matmul_plain_zero_apply none x w p q)

end Cert.KernelIdeal.Acc
end
-- ==== Proof.Blocks.lean ====
/-
  Where the blocks sit.

  The grid has 128 points, numbered `t = 16·i + 4·j + k` with `i < 8` the output's row block, `j < 4` its column block
  and `k < 4` the position along the contracted axis. At point `t` the left operand's block is rows
  `1024·i …` and columns `1024·k …` of the masked activations, the right operand's block rows `1024·k …` and columns
  `1024·j …` of the weights, and the output block rows `1024·i …`, columns `1024·j …` of the result. Here
  `i = t / 16`, `j = t / 4 % 4`, `k = t % 4`.
-/
import proofs.«114684_j82798379532751_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Acc

open Cert.KernelIdeal Cert.KernelIdeal.Gen Idealize.ShloMosaic.ValueIdx

variable {F : FTy → Type} [FloatOps F]
variable (m : (ℓ : Loc nD τ sig) → Buf (Elt F) ℓ)

/-- The three windows' block indices at point `t`, read off the point's number. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4)

/-- Entry `(p, k)` of the left operand's block at point `t` is entry `(1024·(t/16) + p, 1024·(t%4) + k)` of the
    array the region finds. -/
theorem xblk_apply (c : Dev nD) (t : Fin cfg0.N) (p k : Fin 1024) (r : Fin 8192) (kk : Fin 4096)
    (hr : r.val = 1024 * (t.val / 16) + p.val) (hk : kk.val = 1024 * (t.val % 4) + k.val) :
    (iblk m c 0 t : Vec F S1024x1024 .bf16) (ix2 p k) = V m c main_v12 (ix2 r kk) := by
  obtain ⟨e0, e1, -⟩ := idx_facts t
  show V m c main_v12 (((cfg0.win 0).blk t).view.emb (ix2 p k)) = V m c main_v12 (ix2 r kk)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = kk.val; omega

/-- Entry `(k, q)` of the right operand's block at point `t` is entry `(1024·(t%4) + k, 1024·(t/4%4) + q)` of the
    array the region finds. -/
theorem wblk_apply (c : Dev nD) (t : Fin cfg0.N) (k q : Fin 1024) (kk : Fin 4096) (cc : Fin 4096)
    (hk : kk.val = 1024 * (t.val % 4) + k.val) (hc : cc.val = 1024 * (t.val / 4 % 4) + q.val) :
    (iblk m c 1 t : Vec F S1024x1024 .bf16) (ix2 k q) = V m c main_v13 (ix2 kk cc) := by
  obtain ⟨-, -, e2, e3, -⟩ := idx_facts t
  show V m c main_v13 (((cfg0.win 1).blk t).view.emb (ix2 k q)) = V m c main_v13 (ix2 kk cc)
  refine congrArg _ (funext fun a => Fin.ext ?_)
  match a with
  | ⟨0, _⟩ => show win0_1.index t (0 : Fin 2) * 1024 + 1 * k.val = kk.val; omega
  | ⟨1, _⟩ => show win0_1.index t (1 : Fin 2) * 1024 + 1 * q.val = cc.val; omega

/-- Entry `(p, q)` of the output's block at point `t` sits at `(1024·(t/16) + p, 1024·(t/4%4) + q)` of the result. -/
theorem oblk_emb (t : Fin cfg0.N) (p q : Fin 1024) (r : Fin 8192) (cc : Fin 4096)
    (hr : r.val = 1024 * (t.val / 16) + p.val) (hc : cc.val = 1024 * (t.val / 4 % 4) + q.val) :
    ((cfg0.win 2).blk t).view.emb (ix2 p q) = ix2 r cc := by
  obtain ⟨-, -, -, -, e4, e5⟩ := idx_facts t
  refine funext fun a => Fin.ext ?_
  match a with
  | ⟨0, _⟩ => show win0_2.index t (0 : Fin 2) * 1024 + 1 * p.val = r.val; omega
  | ⟨1, _⟩ => show win0_2.index t (1 : Fin 2) * 1024 + 1 * q.val = cc.val; omega

/-- An entry of the result lies in point `t`'s output block exactly when each coordinate lies in the block's range. -/
theorem mem_oblk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v14).slice (win0_2.rect t)).set ↔ _
  rw [View.set_slice_whole, Rect.mem_set_unit]
  exact Iff.rfl

end Cert.KernelIdeal.Acc
end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.BlockedSum.lean ====
/-
  A sum over 4096 terms, taken 1024 at a time.

  The numbers below 4096 are `1024·s + r` with `s < 4` and `r < 1024`, each once. So zero plus the four partial sums
  over `r`, taken for `s = 0, 1, 2, 3` in turn, is the sum over all 4096 terms. Only the commutative-monoid laws of
  addition on the extended reals enter; no term needs to be finite.
-/
import proofs.«114684_j82798379532751_2_alg».proof.Proof.LibBlockSum
import Mathlib.Data.EReal.Basic
import Mathlib.Algebra.BigOperators.Intervals

open scoped BigOperators

namespace Cert.BlockedSum

/-- Zero plus the partial sums of the four blocks, in order, is the whole sum. `g s r` is term `r` of block `s`,
    given for every natural `s` but used only below four. -/
theorem zero_add_blocks (f : Fin 4096 → EReal) (g : ℕ → Fin 1024 → EReal)
    (h : ∀ (s : Fin 4) (r : Fin 1024) (hb : 1024 * s.val + r.val < 4096), g s.val r = f ⟨1024 * s.val + r.val, hb⟩) :
    (0 : EReal) + ∑ s ∈ Finset.range 4, ∑ r : Fin 1024, g s r = ∑ k : Fin 4096, f k := by
  rw [zero_add, Finset.sum_range, Cert.BlockSum.sum_fin_blocks (A := 4) (B := 1024) rfl f]
  exact Finset.sum_congr rfl fun s _ => Finset.sum_congr rfl fun r _ => h s r _

end Cert.BlockedSum
-- ==== Proof.Fold.lean ====
/-
  The accumulator after the last of four points.

  Four consecutive points `4·g, …, 4·g + 3` share one output block. The first zeroes the accumulator and adds its
  block product, each later one adds its own. So after the last of them the accumulator holds, at every entry, zero plus
  the four points' block products in order. Expressed through the whole arrays: entry `(p, q)` of the accumulator is
  zero plus, for `s = 0, …, 3`, the sum over `r < 1024` of `X(R, 1024·s + r) · W(1024·s + r, C)`, where `(R, C)` is
  where entry `(p, q)` of the output block sits in the result; and that is the sum over all `k < 4096` of
  `X(R, k) · W(k, C)`.
-/
import proofs.«114684_j82798379532751_2_alg».proof.Proof.Pieces
import proofs.«114684_j82798379532751_2_alg».proof.Proof.Step
import proofs.«114684_j82798379532751_2_alg».proof.Proof.Blocks
import proofs.«114684_j82798379532751_2_alg».proof.Proof.BlockedSum

open scoped BigOperators

noncomputable section

open Idealize.ShloMosaic Idealize.ShloMosaic.TcCoe Idealize.SL.Sem

namespace Cert.KernelIdeal.Acc

open Cert.KernelIdeal Cert.KernelIdeal.Gen Idealize.ShloMosaic.ValueIdx

variable (m : (ℓ : Loc nD τ sig) → Buf (Elt Ideal) ℓ)

/-- Point `n`'s addend: the product of its two operand blocks, entry by entry (zero for a number past the grid, which
    is never used). -/
def addend (c : Dev nD) (n : ℕ) : S1024x1024.Idx → EReal := fun i =>
  if h : n < cfg0.N then rowcol (iblk m c 0 ⟨n, h⟩) (iblk m c 1 ⟨n, h⟩) (i 0) (i 1) else 0

theorem addend_apply (c : Dev nD) (n : ℕ) (h : n < cfg0.N) (p q : Fin 1024) :
    addend m c n (ix2 p q) = rowcol (iblk m c 0 ⟨n, h⟩) (iblk m c 1 ⟨n, h⟩) p q := by
  unfold addend
  rw [dif_pos h]

/-- At the first of four points the accumulator ends at zero plus the point's addend. -/
theorem reset_apply (c : Dev nD) (n : ℕ) (h : n < cfg0.N) (h0 : n % 4 = 0) (acc : Vec Ideal S1024x1024 .f32) (i : S1024x1024.Idx) :
    Value.scAt0_0 m c n h acc i = 0 + addend m c n i := by
  have h1 : ¬n % 4 = 3 := by omega
  obtain ⟨p, q, rfl⟩ : ∃ p q : Fin 1024, i = ix2 p q := ⟨i 0, i 1, eq_ix2 i⟩
  unfold Value.scAt0_0
  rw [dif_pos h0, dif_neg h1]
  refine (congrFun (scratch_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N))) (ix2 p q)).trans ?_
  rw [step_apply, zero_apply, addend_apply m c n h]

/-- At every other point it ends at what the point before left plus the point's addend. -/
theorem step_at (c : Dev nD) (n : ℕ) (h : n < cfg0.N) (h0 : ¬n % 4 = 0) (acc : Vec Ideal S1024x1024 .f32) (i : S1024x1024.Idx) :
    Value.scAt0_0 m c n h acc i = acc i + addend m c n i := by
  obtain ⟨p, q, rfl⟩ : ∃ p q : Fin 1024, i = ix2 p q := ⟨i 0, i 1, eq_ix2 i⟩
  unfold Value.scAt0_0
  rw [dif_neg h0]
  by_cases h1 : n % 4 = 3
  · rw [dif_pos h1]
    refine (congrFun (scratch_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) acc) (ix2 p q)).trans ?_
    rw [step_apply, addend_apply m c n h]
  · rw [dif_neg h1]
    refine (congrFun (scratch_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) acc) (ix2 p q)).trans ?_
    rw [step_apply, addend_apply m c n h]

/-- After the last of four points the accumulator holds zero plus the four addends, in order. -/
theorem scratch_fold (c : Dev nD) (t : Fin cfg0.N) (h3 : t.val % 4 = 3) (i : S1024x1024.Idx) :
    (outsAt0 m c t.val t.isLt).2 i = 0 + ∑ s ∈ Finset.range 4, addend m c (4 * (t.val / 4) + s) i := by
  rw [Value.soutsAt0_0_eq m c t]
  have key : ∀ (j : ℕ) (hb : 4 * (t.val / 4) + j < cfg0.N), j = 3 →
      Pipeline.accAt (fun n h => Value.scAt0_0 m c n h (VS0_0.read (Elt Ideal) VS0_0.junk)) (Value.scAt0_0 m c) (4 * (t.val / 4)) j hb i
        = 0 + ∑ s ∈ Finset.range 4, addend m c (4 * (t.val / 4) + s) i := by
    intro j hb hj
    subst hj
    exact Pipeline.accAt_add_apply (ι := S1024x1024.Idx) (β := EReal)
      (fun n h => Value.scAt0_0 m c n h (VS0_0.read (Elt Ideal) VS0_0.junk)) (Value.scAt0_0 m c) (fun _ => 0) (addend m c)
      (4 * (t.val / 4)) 3
      (fun h i => reset_apply m c _ h (by omega) _ i)
      (fun n h acc i hlt hle => step_at m c n h (by omega) acc i)
      3 (Nat.le_refl 3) hb i
  exact key _ _ h3

/-- The same through the whole arrays `X`, `W` the region finds its operands in: the row-by-column sum over all 4096
    positions. -/
theorem fold_global (c : Dev nD) (t : Fin cfg0.N) (h3 : t.val % 4 = 3) (p q : Fin 1024) (R : Fin 8192) (C : Fin 4096)
    (hR : R.val = 1024 * (t.val / 16) + p.val) (hC : C.val = 1024 * (t.val / 4 % 4) + q.val)
    (X : S8192x4096.Idx → EReal) (W : S4096x4096.Idx → EReal)
    (hX : ∀ i, V m c main_v12 i = X i) (hW : ∀ i, V m c main_v13 i = W i) :
    (0 : EReal) + ∑ s ∈ Finset.range 4, addend m c (4 * (t.val / 4) + s) (ix2 p q) = rowcol X W R C := by
  have hN : cfg0.N = 128 := N_0
  have ht : t.val < 128 := lt_of_lt_of_eq t.isLt hN
  have e : ∀ s ∈ Finset.range 4, addend m c (4 * (t.val / 4) + s) (ix2 p q)
      = ∑ r : Fin 1024, (if hs : s < 4 then X (ix2 R ⟨1024 * s + r.val, by have := r.isLt; omega⟩) * W (ix2 ⟨1024 * s + r.val, by have := r.isLt; omega⟩ C) else 0) := by
    intro s hs
    have hs4 : s < 4 := Finset.mem_range.mp hs
    have hn : 4 * (t.val / 4) + s < cfg0.N := lt_of_lt_of_eq (by omega : 4 * (t.val / 4) + s < 128) hN.symm
    rw [addend_apply m c _ hn]
    unfold rowcol
    refine Finset.sum_congr rfl fun r _ => ?_
    rw [dif_pos hs4]
    rw [xblk_apply m c ⟨4 * (t.val / 4) + s, hn⟩ p r R ⟨1024 * s + r.val, by have := r.isLt; omega⟩ (by show R.val = 1024 * ((4 * (t.val / 4) + s) / 16) + p.val; omega) (by show 1024 * s + r.val = 1024 * ((4 * (t.val / 4) + s) % 4) + r.val; omega),
      wblk_apply m c ⟨4 * (t.val / 4) + s, hn⟩ r q ⟨1024 * s + r.val, by have := r.isLt; omega⟩ C (by show 1024 * s + r.val = 1024 * ((4 * (t.val / 4) + s) % 4) + r.val; omega) (by show C.val = 1024 * ((4 * (t.val / 4) + s) / 4 % 4) + q.val; omega),
      hX, hW]
  rw [Finset.sum_congr rfl e]
  unfold rowcol
  exact Cert.BlockedSum.zero_add_blocks (fun k => X (ix2 R k) * W (ix2 k C)) _
    (fun s r hb => by rw [dif_pos s.isLt])

end Cert.KernelIdeal.Acc
end
-- ==== Proof.Entry.lean ====
/-
  What the region finds in its two operand arrays.

  Before the region the host computes the masked activations: the activations' absolute values are averaged over
  64 × 64 tiles, a tile whose average exceeds the threshold is kept and every other tile is replaced by zero. That
  array, and the weights, are then converted to a shorter float format; over the extended reals the conversion is the
  identity. So the left operand array is `masked x` and the right operand array is the weights, entry by entry. How
  the mask is computed never matters below: both programs compute it by the same operations, and `masked` stays closed.
-/
import proofs.«114684_j82798379532751_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem

namespace Cert.KernelIdeal.Entry

open Cert.KernelIdeal Cert.KernelIdeal.Gen

variable {F : FTy → Type} [FloatOps F]

/-- The masked activations, as the host's operations before the region compute them from the activations `x`. -/
def masked (x : (⟨S8192x4096, .f32⟩ : BufTy).Contents (Elt F)) : (⟨S8192x4096, .f32⟩ : BufTy).Contents (Elt F) :=
  select (shapeCast _ (broadcastInDim S8192x64x64 ![0, 1] bcast_S8192x64_S8192x64x64_0_1 (shapeCast _ (broadcastInDim S128x64x64 ![0, 2] bcast_S128x64_S128x64x64_0_2 (cmpf .ogt (Host.divf (Host.reduceAdd (shapeCast _ (Host.absf x) shapeCasts_S8192x4096_S128x64x64x64) (constant S_ .f32 0x00000000#32) reducesTo_S128x64x64x64_S128x64_d1_3 h_S_) (broadcastInDim S128x64 ![] bcast_S_S128x64 (constant S_ .f32 0x45800000#32))) (broadcastInDim S128x64 ![] bcast_S_S128x64 (constant S_ .f32 0x3F4CCCCD#32)))) shapeCasts_S128x64x64_S8192x64)) shapeCasts_S8192x64x64_S8192x4096) x (broadcastInDim S8192x4096 ![] bcast_S_S8192x4096 (id (constant S_ .f32 0x00000000#32)))

variable (m : (ℓ : Loc nD τ sig) → Buf (Elt F) ℓ)

/-- The left operand array at region entry: the masked activations, converted. -/
theorem V_lhs (c : Dev nD) : V m c main_v12 = truncf .bf16 (masked (m ((c : Thread nD τ).loc main_arg0))) bitsLt_bf16_f32 := by
  unfold masked
  dsimp only [V]
  simp only [hostOps0, hostOps0_1, hostOps0_2, List.flatten_cons, List.flatten_nil, List.append_nil, List.cons_append, List.nil_append]
  after_results
  rfl

/-- The right operand array at region entry: the weights, converted. -/
theorem V_rhs (c : Dev nD) : V m c main_v13 = truncf .bf16 (m ((c : Thread nD τ).loc main_arg1)) bitsLt_bf16_f32 := by
  dsimp only [V]
  simp only [hostOps0, hostOps0_1, hostOps0_2, List.flatten_cons, List.flatten_nil, List.append_nil, List.cons_append, List.nil_append]
  after_results

/-- Over the extended reals the conversion is the identity: the left operand array is the masked activations. -/
theorem V_lhs_apply (mI : (ℓ : Loc nD τ sig) → Buf (Elt Ideal) ℓ) (c : Dev nD) (i : S8192x4096.Idx) :
    V mI c main_v12 i = masked (F := Ideal) (mI ((c : Thread nD τ).loc main_arg0)) i := by
  rw [V_lhs]; rfl

/-- … and the right operand array is the weights. -/
theorem V_rhs_apply (mI : (ℓ : Loc nD τ sig) → Buf (Elt Ideal) ℓ) (c : Dev nD) (i : S4096x4096.Idx) :
    V mI c main_v13 i = mI ((c : Thread nD τ).loc main_arg1) i := by
  rw [V_rhs]; rfl

end Cert.KernelIdeal.Entry
end
-- ==== Proof.KernelValue.lean ====
/-
  The kernel's result array.

  The output is written back only at the last of each four points, and what is written back is the accumulator. By the
  fold, entry `(p, q)` of the block written at such a point is the row-by-column sum `Σ_{k<4096} X(R, k) · W(k, C)` at
  the place `(R, C)` where that entry sits in the result, `X` the masked activations and `W` the weights. The 32
  written blocks tile the [8192, 4096] result, so the whole array ends at `G X W`, the full matrix product.
-/
import proofs.«114684_j82798379532751_2_alg».proof.Proof.Fold
import proofs.«114684_j82798379532751_2_alg».proof.Proof.Entry

open scoped BigOperators

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

/-- The matrix product of `X : [8192, 4096]` and `W : [4096, 4096]`, entry by entry. -/
def G (X : S8192x4096.Idx → EReal) (W : S4096x4096.Idx → EReal) : S8192x4096.Idx → EReal :=
  fun i => rowcol X W (i 0) (i 1)

variable (m : (ℓ : Loc nD τ sig) → Buf (Elt Ideal) ℓ) (ρ : Dev nD → PrngReg)

/-- The product of the masked activations and the weights, from the arguments as launched. -/
abbrev result (c : Dev nD) : S8192x4096.Idx → EReal :=
  G (Entry.masked (F := Ideal) (m ((c : Thread nD τ).loc main_arg0))) (m ((c : Thread nD τ).loc main_arg1))

/-- What a flushing point writes back is its block of that product. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 128 := N_0
  have ht : t.val < 128 := lt_of_lt_of_eq t.isLt hN
  have e1 : (outsAt0 m c t.val t.isLt).1 = (outsAt0 m c t.val t.isLt).2 := by
    rw [outsAt0_C m c t h0 h3]
    dsimp only
    exact (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).trans
      (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).symm
  rw [Value.flushed2 m c t, e1]
  refine funext fun (j : S1024x1024.Idx) => ?_
  obtain ⟨p, q, rfl⟩ : ∃ p q : Fin 1024, j = ix2 p q := ⟨j 0, j 1, eq_ix2 j⟩
  show (outsAt0 m c t.val t.isLt).2 (ix2 p q) = result m c (((cfg0.win 2).blk t).view.emb (ix2 p q))
  rw [scratch_fold m c t h3 (ix2 p q),
    oblk_emb t p q ⟨1024 * (t.val / 16) + p.val, by have := p.isLt; omega⟩ ⟨1024 * (t.val / 4 % 4) + q.val, by have := q.isLt; omega⟩ rfl rfl]
  exact fold_global m c t h3 p q _ _ rfl rfl _ _ (Entry.V_lhs_apply m c) (Entry.V_rhs_apply m c)

/-- Every entry of the result lies in the block some flushing point writes. -/
theorem cover (i : S8192x4096.Idx) :
    ∃ t : Fin cfg0.N, (cfg0.win 2).flush t = true ∧ i ∈ ((cfg0.win 2).blk t).view.set := by
  have hN : cfg0.N = 128 := N_0
  have hi0 : (i 0).val < 8192 := (i 0).isLt
  have hi1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, e4, e5⟩ := idx_facts t
  refine ⟨t, (flush0_2 t).mpr (by omega), ?_⟩
  rw [mem_oblk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run: the product of the masked activations and the weights. -/
theorem final (c : Dev nD) : (dats m 0 c).arrAt 2 cfg0.N = result m c :=
  (dats m 0 c).arrAt_eq_of_cover 2 (result m c) (fun t hf => flushed_eq m c t hf) cover

/-- The kernel's run: the result array ends at that product, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Value.run_blocks m ρ)

end Cert.KernelIdeal.Acc
end
-- ==== Proof.RefSide.lean ====
/-
  The reference's result is the same matrix product.

  The reference computes the masked activations by the same host operations as the kernel's program and then takes one
  general dot product with the weights, contracting the activations' columns with the weights' rows: at entry `(R, C)`
  the sum over `k < 4096` of `masked x (R, k) · w(k, C)` — the function `G` the kernel's result array ends at.
-/
import proofs.«114684_j82798379532751_2_alg».proof.Proof.Gen.ReferenceIdeal.Run
import proofs.«114684_j82798379532751_2_alg».proof.Proof.LibMatmul
import proofs.«114684_j82798379532751_2_alg».proof.Proof.KernelValue

open scoped BigOperators

noncomputable section

namespace Cert.ReferenceIdeal.RefValue

open Cert.ReferenceIdeal Cert.ReferenceIdeal.Gen Idealize.ShloMosaic Idealize.ShloMosaic.ValueIdx

/-- The reference's contraction has the plain dimension numbers. -/
theorem dot_plain : dot_S8192x4096_S4096x4096_S8192x4096_1_0_0_1_n_n = DotDims.plain 8192 4096 4096 := rfl

section
variable {F : FTy → Type} [FloatOps F]

/-- The masked activations as the reference's host operations compute them. -/
def masked (x : (⟨S8192x4096, .f32⟩ : BufTy).Contents (Elt F)) : (⟨S8192x4096, .f32⟩ : BufTy).Contents (Elt F) :=
  select (shapeCast _ (broadcastInDim S8192x64x64 ![0, 1] bcast_S8192x64_S8192x64x64_0_1 (shapeCast _ (broadcastInDim S128x64x64 ![0, 2] bcast_S128x64_S128x64x64_0_2 (cmpf .ogt (Host.divf (Host.reduceAdd (shapeCast _ (Host.absf x) shapeCasts_S8192x4096_S128x64x64x64) (constant S_ .f32 0x00000000#32) reducesTo_S128x64x64x64_S128x64_d1_3 h_S_) (broadcastInDim S128x64 ![] bcast_S_S128x64 (constant S_ .f32 0x45800000#32))) (broadcastInDim S128x64 ![] bcast_S_S128x64 (constant S_ .f32 0x3F4CCCCD#32)))) shapeCasts_S128x64x64_S8192x64)) shapeCasts_S8192x64x64_S8192x4096) x (broadcastInDim S8192x4096 ![] bcast_S_S8192x4096 (id (constant S_ .f32 0x00000000#32)))

end

/-- The two programs compute the masked activations by the same operations on the same shapes. -/
theorem masked_eq (x : (⟨S8192x4096, .f32⟩ : BufTy).Contents (Elt Ideal)) :
    masked (F := Ideal) x = Cert.KernelIdeal.Entry.masked (F := Ideal) x := rfl

/-- The reference's result, as a function of the activations and the weights, is the kernel's. -/
theorem result_eq (x : (⟨S8192x4096, .f32⟩ : BufTy).Contents (Elt Ideal)) (w : (⟨S4096x4096, .f32⟩ : BufTy).Contents (Elt Ideal)) :
    Host.dotGeneral (F := Ideal) (φ₁ := .f32) (φ₂ := .f32) dot_S8192x4096_S4096x4096_S8192x4096_1_0_0_1_n_n none (masked (F := Ideal) x) w
      = Cert.KernelIdeal.Acc.G (Cert.KernelIdeal.Entry.masked (F := Ideal) x) w := by
  funext i
  obtain ⟨R, C, rfl⟩ : ∃ (R : Fin 8192) (C : Fin 4096), i = ix2 R C := ⟨i 0, i 1, eq_ix2 i⟩
  rw [dot_plain, Cert.MatOps.dotGeneral_plain_apply, masked_eq]
  rfl

end Cert.ReferenceIdeal.RefValue
end
-- ==== Proof.lean ====
/-
  A block-thresholded linear layer: the kernel against its reference, over the extended reals.

  Both programs first mask the activations `x : [8192, 4096]`: the absolute values are averaged over 64 × 64 tiles, and
  every tile whose average does not exceed the threshold is replaced by zero. They do this by the same host operations
  with the same constants, so the masked activations `X` are one function of `x` on both sides and are never opened.

  The reference then takes one matrix product `X · W` with the weights `W : [4096, 4096]`: entry `(R, C)` is
  `Σ_{k<4096} X(R, k) · W(k, C)`.

  The kernel converts `X` and `W` to a shorter float format — the identity on the extended reals — and computes the
  product block by block on an 8 × 4 × 4 grid: for each [1024, 1024] output block it zeroes an accumulator, adds the
  products of the four pairs of [1024, 1024] operand blocks along the contracted axis one after the other, and writes the
  accumulator out after the fourth. Entry `(R, C)` therefore ends at `0 + Σ_{s<4} Σ_{r<1024} X(R, 1024·s + r) · W(1024·s + r, C)`.

  The two agree because the numbers below 4096 are the numbers `1024·s + r`, each once, and addition on the extended
  reals is a commutative monoid: regrouping a sum and adding zero change nothing, whether or not the terms are finite.
  So the precondition is never used. The kernel's idealization rewrites nothing, and the three frames are the generated
  runs.
-/
import proofs.«114684_j82798379532751_2_alg».proof.Defs
import proofs.«114684_j82798379532751_2_alg».proof.Proof.Gen.Kernel
import proofs.«114684_j82798379532751_2_alg».proof.Proof.Gen.Kernel.Skeleton
import proofs.«114684_j82798379532751_2_alg».proof.Proof.Gen.Kernel.Launch
import proofs.«114684_j82798379532751_2_alg».proof.Proof.Gen.Kernel.Points
import proofs.«114684_j82798379532751_2_alg».proof.Proof.Gen.Kernel.Frame
import proofs.«114684_j82798379532751_2_alg».proof.Proof.Gen.KernelIdeal
import proofs.«114684_j82798379532751_2_alg».proof.Proof.Gen.KernelIdeal.Skeleton
import proofs.«114684_j82798379532751_2_alg».proof.Proof.Gen.KernelIdeal.Launch
import proofs.«114684_j82798379532751_2_alg».proof.Proof.Gen.KernelIdeal.Points
import proofs.«114684_j82798379532751_2_alg».proof.Proof.Gen.KernelIdeal.Frame
import proofs.«114684_j82798379532751_2_alg».proof.Proof.Gen.ReferenceIdeal
import proofs.«114684_j82798379532751_2_alg».proof.Proof.Gen.Pre_finite_inputs
import proofs.«114684_j82798379532751_2_alg».proof.Proof.Gen.KernelIdeal.Value
import proofs.«114684_j82798379532751_2_alg».proof.Proof.Gen.ReferenceIdeal.Run
import proofs.«114684_j82798379532751_2_alg».proof.Proof.KernelValue
import proofs.«114684_j82798379532751_2_alg».proof.Proof.RefSide
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the activations and the weights, both programs end with the product of the masked
    activations and the weights in their result arrays. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
